-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel

variable [Facts]

def fn {F : FTy → Type} [FloatOps F] (main_arg0 : FVec F S65536x128 .f32) (main_arg1 : FVec F S65536x128 .f32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S65536x128 .f32 := Host.absf main_arg1
  let main_cst_0 : FVec F S_ .f32 := constant S_ .f32 0x7F800000#32
  let main_v5 : FVec F S65536x128 .f32 := broadcastInDim S65536x128 ![] bcast_S_S65536x128 main_cst_0
  let main_v6 : IVec S65536x128 1 := cmpf .olt main_v4 main_v5
  let main_c_1 : IVec S_ 1 := constantI S_ 1 1#1
  let main_v7 : IVec S_ 1 := (fun x v => Host.reduce IntOp.andi x v reducesTo_S65536x128_S_d0_1 h_S_) main_v6 main_c_1
  let main_v8 : IVec S_ 1 := andi main_v3 main_v7
  main_v8
-- ==== Kernel.lean ====
abbrev S65536x128 : Shape := ⟨2, ![65536, 128]⟩
abbrev S128x512x128 : Shape := ⟨3, ![128, 512, 128]⟩
abbrev S1x1 : Shape := ⟨2, ![1, 1]⟩
abbrev S4x512x128 : Shape := ⟨3, ![4, 512, 128]⟩
abbrev S4x512 : Shape := ⟨2, ![4, 512]⟩
abbrev S4x512x1 : Shape := ⟨3, ![4, 512, 1]⟩
abbrev S4x1x512 : Shape := ⟨3, ![4, 1, 512]⟩
abbrev S4x512x512 : Shape := ⟨3, ![4, 512, 512]⟩
abbrev S4x1 : Shape := ⟨2, ![4, 1]⟩
abbrev S4x1x1 : Shape := ⟨3, ![4, 1, 1]⟩
abbrev S_ : Shape := ⟨0, ![]⟩

abbrev nBuf : Space → Nat
  | .hbm => 6
  | .vmem => 6
  | .smem => 0
  | _ => 0

abbrev bufTy : (tb : Table) → Fin (tcTables nBuf tb) → BufTy
  | .hbm, ⟨0, _⟩ => ⟨S65536x128, .f32⟩
  | .hbm, ⟨1, _⟩ => ⟨S65536x128, .f32⟩
  | .hbm, ⟨2, _⟩ => ⟨S128x512x128, .f32⟩
  | .hbm, ⟨3, _⟩ => ⟨S128x512x128, .f32⟩
  | .hbm, ⟨4, _⟩ => ⟨S1x1, .f32⟩
  | .hbm, ⟨5, _⟩ => ⟨S_, .f32⟩
  | .local _ .vmem, ⟨0, _⟩ => ⟨S4x512x128, .f32⟩
  | .local _ .vmem, ⟨1, _⟩ => ⟨S4x512x128, .f32⟩
  | .local _ .vmem, ⟨2, _⟩ => ⟨S4x512x128, .f32⟩
  | .local _ .vmem, ⟨3, _⟩ => ⟨S4x512x128, .f32⟩
  | .local _ .vmem, ⟨4, _⟩ => ⟨S1x1, .f32⟩
  | .local _ .vmem, ⟨5, _⟩ => ⟨S1x1, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v95 : BitVec 1 := Scalar.cmpi .eq arg0 c31_i32
  let v96 : BitVec 32 := Scalar.extui v95
  let c0_i32_41 : BitVec 32 := 0#32
  let v97 : BitVec 1 := Scalar.cmpi .ne v96 c0_i32_41
  v97

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S65536x128_S128x512x128 : S65536x128.ShapeCasts S128x512x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4x512x128_S4x512x128_0_0_0 : ∀ a, (![0, 0, 0] : Fin 3 → Nat) a + S4x512x128.size a ≤ S4x512x128.size a
  h_S4x512x128 : 0 < S4x512x128.numel
  shapeCasts_S4x512x128_S4x512x128 : S4x512x128.ShapeCasts S4x512x128
  bitsLt_bf16_f32 : FTy.bits .bf16 < FTy.bits .f32
  reduces_S4x512x128_S4x512 : S4x512x128.Reduces [2] S4x512
  shapeCasts_S4x512_S4x512x1 : S4x512.ShapeCasts S4x512x1
  transposes_S4x512x1_p0_2_1_S4x1x512 : S4x512x1.Transposes [0, 2, 1] S4x1x512
  broadcasts_S4x512x1_S4x512x512 : S4x512x1.Broadcasts S4x512x512
  broadcasts_S4x1x512_S4x512x512 : S4x1x512.Broadcasts S4x512x512
  reduces_S4x512x512_S4x512 : S4x512x512.Reduces [2] S4x512
  reduces_S4x512x1_S4x1 : S4x512x1.Reduces [1] S4x1
  shapeCasts_S4x1_S4x1x1 : S4x1.ShapeCasts S4x1x1
  reduces_S4x1x1_S1x1 : S4x1x1.Reduces [0] S1x1
  shapeCasts_S1x1_S_ : S1x1.ShapeCasts S_
  dot_S4x512x128_S4x512x128_S4x512x512_2_2_1_1_0_0_wf : DotDims.WF S4x512x128 S4x512x128 S4x512x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x128.size a ≤ S128x512x128.size a
  hwx0_0 : ∀ i : grid0.Coords, EltTy.bits .f32 = 32 ∨ (Rect.block (s := S128x512x128) S4x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x128.size a ≤ S128x512x128.size a
  hwx0_1 : ∀ i : grid0.Coords, EltTy.bits .f32 = 32 ∨ (Rect.block (s := S128x512x128) S4x512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S4x512x128_S4x512x128_S4x512x512_2_2_1_1_0_0 : DotDims S4x512x128 S4x512x128 S4x512x512 where
  lhsContracting := [2]
  rhsContracting := [2]
  lhsNonContracting := [1]
  rhsNonContracting := [1]
  lhsBatch := [0]
  rhsBatch := [0]
  wf := dot_S4x512x128_S4x512x128_S4x512x512_2_2_1_1_0_0_wf

abbrev win0_0 : Pipeline.Window sig grid0 :=
  Pipeline.Window.ofSpec (Memref.whole main_v0) S4x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S65536x128 : Shape := ⟨2, ![65536, 128]⟩
abbrev S128x512x128 : Shape := ⟨3, ![128, 512, 128]⟩
abbrev S_ : Shape := ⟨0, ![]⟩
abbrev S128x512 : Shape := ⟨2, ![128, 512]⟩
abbrev S128x512x1 : Shape := ⟨3, ![128, 512, 1]⟩
abbrev S128x1x512 : Shape := ⟨3, ![128, 1, 512]⟩
abbrev S128x512x512 : Shape := ⟨3, ![128, 512, 512]⟩
abbrev S128 : Shape := ⟨1, ![128]⟩

abbrev nBuf : Space → Nat
  | .hbm => 115
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S65536x128, .f32⟩
  | .hbm, ⟨2, _⟩ => ⟨S128x512x128, .f32⟩
  | .hbm, ⟨3, _⟩ => ⟨S128x512x128, .f32⟩
  | .hbm, ⟨4, _⟩ => ⟨S128x512x128, .f32⟩
  | .hbm, ⟨5, _⟩ => ⟨S_, .f32⟩
  | .hbm, ⟨6, _⟩ => ⟨S128x512, .f32⟩
  | .hbm, ⟨7, _⟩ => ⟨S128x512x128, .f32⟩
  | .hbm, ⟨8, _⟩ => ⟨S_, .f32⟩
  | .hbm, ⟨9, _⟩ => ⟨S128x512, .f32⟩
  | .hbm, ⟨10, _⟩ => ⟨S128x512x1, .f32⟩
  | .hbm, ⟨11, _⟩ => ⟨S128x1x512, .f32⟩
  | .hbm, ⟨12, _⟩ => ⟨S128x512x512, .f32⟩
  | .hbm, ⟨13, _⟩ => ⟨S128x512x512, .f32⟩
  | .hbm, ⟨14, _⟩ => ⟨S128x512x512, .f32⟩
  | .hbm, ⟨15, _⟩ => ⟨S128x512x512, .f32⟩
  | .hbm, ⟨16, _⟩ => ⟨S_, .f32⟩
  | .hbm, ⟨17, _⟩ => ⟨S128x512x512, .f32⟩
  | .hbm, ⟨18, _⟩ => ⟨S128x512x512, .f32⟩
  | .hbm, ⟨19, _⟩ => ⟨S128x512x512, .f32⟩
  | .hbm, ⟨20, _⟩ => ⟨S_, .f32⟩
  | .hbm, ⟨21, _⟩ => ⟨S128x512x512, .f32⟩
  | .hbm, ⟨22, _⟩ => ⟨S128x512x512, .i1⟩
  | .hbm, ⟨23, _⟩ => ⟨S_, .f32⟩
  | .hbm, ⟨24, _⟩ => ⟨S_, .f32⟩
  | .hbm, ⟨25, _⟩ => ⟨S128x512x512, .f32⟩
  | .hbm, ⟨26, _⟩ => ⟨S128x512x512, .f32⟩
  | .hbm, ⟨27, _⟩ => ⟨S128x512x512, .f32⟩
  | .hbm, ⟨28, _⟩ => ⟨S_, .f32⟩
  | .hbm, ⟨29, _⟩ => ⟨S_, .f32⟩
  | .hbm, ⟨30, _⟩ => ⟨S128x512x512, .f32⟩
  | .hbm, ⟨31, _⟩ => ⟨S128x512x512, .f32⟩
  | .hbm, ⟨32, _⟩ => ⟨S_, .f32⟩
  | .hbm, ⟨33, _⟩ => ⟨S128, .f32⟩
  | .hbm, ⟨34, _⟩ => ⟨S_, .f32⟩
  | .hbm, ⟨35, _⟩ => ⟨S128, .f32⟩
  | .hbm, ⟨36, _⟩ => ⟨S128, .f32⟩
  | .hbm, ⟨37, _⟩ => ⟨S128x512x128, .f32⟩
  | .hbm, ⟨38, _⟩ => ⟨S_, .f32⟩
  | .hbm, ⟨39, _⟩ => ⟨S128x512, .f32⟩
  | .hbm, ⟨40, _⟩ => ⟨S128x512x128, .f32⟩
  | .hbm, ⟨41, _⟩ => ⟨S_, .f32⟩
  | .hbm, ⟨42, _⟩ => ⟨S128x512, .f32⟩
  | .hbm, ⟨43, _⟩ => ⟨S128x512x1, .f32⟩
  | .hbm, ⟨44, _⟩ => ⟨S128x1x512, .f32⟩
  | .hbm, ⟨45, _⟩ => ⟨S128x512x512, .f32⟩
  | .hbm, ⟨46, _⟩ => ⟨S128x512x512, .f32⟩
  | .hbm, ⟨47, _⟩ => ⟨S128x512x512, .f32⟩
  | .hbm, ⟨48, _⟩ => ⟨S128x512x512, .f32⟩
  | .hbm, ⟨49, _⟩ => ⟨S_, .f32⟩
  | .hbm, ⟨50, _⟩ => ⟨S128x512x512, .f32⟩
  | .hbm, ⟨51, _⟩ => ⟨S128x512x512, .f32⟩
  | .hbm, ⟨52, _⟩ => ⟨S128x512x512, .f32⟩
  | .hbm, ⟨53, _⟩ => ⟨S_, .f32⟩
  | .hbm, ⟨54, _⟩ => ⟨S128x512x512, .f32⟩
  | .hbm, ⟨55, _⟩ => ⟨S128x512x512, .i1⟩
  | .hbm, ⟨56, _⟩ => ⟨S_, .f32⟩
  | .hbm, ⟨57, _⟩ => ⟨S_, .f32⟩
  | .hbm, ⟨58, _⟩ => ⟨S128x512x512, .f32⟩
  | .hbm, ⟨59, _⟩ => ⟨S128x512x512, .f32⟩
  | .hbm, ⟨60, _⟩ => ⟨S128x512x512, .f32⟩
  | .hbm, ⟨61, _⟩ => ⟨S_, .f32⟩
  | .hbm, ⟨62, _⟩ => ⟨S_, .f32⟩
  | .hbm, ⟨63, _⟩ => ⟨S128x512x512, .f32⟩
  | .hbm, ⟨64, _⟩ => ⟨S128x512x512, .f32⟩
  | .hbm, ⟨65, _⟩ => ⟨S_, .f32⟩
  | .hbm, ⟨66, _⟩ => ⟨S128, .f32⟩
  | .hbm, ⟨67, _⟩ => ⟨S_, .f32⟩
  | .hbm, ⟨68, _⟩ => ⟨S128, .f32⟩
  | .hbm, ⟨69, _⟩ => ⟨S128, .f32⟩
  | .hbm, ⟨70, _⟩ => ⟨S128x512x128, .f32⟩
  | .hbm, ⟨71, _⟩ => ⟨S_, .f32⟩
  | .hbm, ⟨72, _⟩ => ⟨S128x512, .f32⟩
  | .hbm, ⟨73, _⟩ => ⟨S128x512x128, .f32⟩
  | .hbm, ⟨74, _⟩ => ⟨S_, .f32⟩
  | .hbm, ⟨75, _⟩ => ⟨S128x512, .f32⟩
  | .hbm, ⟨76, _⟩ => ⟨S128x512x1, .f32⟩
  | .hbm, ⟨77, _⟩ => ⟨S128x1x512, .f32⟩
  | .hbm, ⟨78, _⟩ => ⟨S128x512x512, .f32⟩
  | .hbm, ⟨79, _⟩ => ⟨S128x512x512, .f32⟩
  | .hbm, ⟨80, _⟩ => ⟨S128x512x512, .f32⟩
  | .hbm, ⟨81, _⟩ => ⟨S128x512x512, .f32⟩
  | .hbm, ⟨82, _⟩ => ⟨S_, .f32⟩
  | .hbm, ⟨83, _⟩ => ⟨S128x512x512, .f32⟩
  | .hbm, ⟨84, _⟩ => ⟨S128x512x512, .f32⟩
  | .hbm, ⟨85, _⟩ => ⟨S128x512x512, .f32⟩
  | .hbm, ⟨86, _⟩ => ⟨S_, .f32⟩
  | .hbm, ⟨87, _⟩ => ⟨S128x512x512, .f32⟩
  | .hbm, ⟨88, _⟩ => ⟨S128x512x512, .i1⟩
  | .hbm, ⟨89, _⟩ => ⟨S_, .f32⟩
  | .hbm, ⟨90, _⟩ => ⟨S_, .f32⟩
  | .hbm, ⟨91, _⟩ => ⟨S128x512x512, .f32⟩
  | .hbm, ⟨92, _⟩ => ⟨S128x512x512, .f32⟩
  | .hbm, ⟨93, _⟩ => ⟨S128x512x512, .f32⟩
  | .hbm, ⟨94, _⟩ => ⟨S_, .f32⟩
  | .hbm, ⟨95, _⟩ => ⟨S_, .f32⟩
  | .hbm, ⟨96, _⟩ => ⟨S128x512x512, .f32⟩
  | .hbm, ⟨97, _⟩ => ⟨S128x512x512, .f32⟩
  | .hbm, ⟨98, _⟩ => ⟨S_, .f32⟩
  | .hbm, ⟨99, _⟩ => ⟨S128, .f32⟩
  | .hbm, ⟨100, _⟩ => ⟨S_, .f32⟩
  | .hbm, ⟨101, _⟩ => ⟨S128, .f32⟩
  | .hbm, ⟨102, _⟩ => ⟨S128, .f32⟩
  | .hbm, ⟨103, _⟩ => ⟨S_, .f32⟩
  | .hbm, ⟨104, _⟩ => ⟨S128, .f32⟩
  | .hbm, ⟨105, _⟩ => ⟨S128, .f32⟩
  | .hbm, ⟨106, _⟩ => ⟨S128, .f32⟩
  | .hbm, ⟨107, _⟩ => ⟨S_, .f32⟩
  | .hbm, ⟨108, _⟩ => ⟨S128, .f32⟩
  | .hbm, ⟨109, _⟩ => ⟨S128, .f32⟩
  | .hbm, ⟨110, _⟩ => ⟨S128, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_call1_v0 : Ref sig .tc := ⟨.hbm, 29, rfl⟩
abbrev main_call1_v1 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_7 : Ref sig .tc := ⟨.hbm, 38, rfl⟩
abbrev main_v24 : Ref sig .tc := ⟨.hbm, 39, rfl⟩
abbrev main_v25 : Ref sig .tc := ⟨.hbm, 40, rfl⟩
abbrev main_cst_8 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_9 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_10 : Ref sig .tc := ⟨.hbm, 53, rfl⟩
abbrev main_v36 : Ref sig .tc := ⟨.hbm, 54, rfl⟩
abbrev main_v37 : Ref sig .tc := ⟨.hbm, 55, rfl⟩
abbrev main_cst_11 : Ref sig .tc := ⟨.hbm, 56, rfl⟩
abbrev main_call2_v0 : Ref sig .tc := ⟨.hbm, 57, rfl⟩
abbrev main_call2_v1 : Ref sig .tc := ⟨.hbm, 58, rfl⟩
abbrev main_v38 : Ref sig .tc := ⟨.hbm, 59, rfl⟩
abbrev main_v39 : Ref sig .tc := ⟨.hbm, 60, rfl⟩
abbrev main_cst_12 : Ref sig .tc := ⟨.hbm, 61, rfl⟩
abbrev main_call3_v0 : Ref sig .tc := ⟨.hbm, 62, rfl⟩
abbrev main_call3_v1 : Ref sig .tc := ⟨.hbm, 63, rfl⟩
abbrev main_v40 : Ref sig .tc := ⟨.hbm, 64, rfl⟩
abbrev main_cst_13 : Ref sig .tc := ⟨.hbm, 65, rfl⟩
abbrev main_v41 : Ref sig .tc := ⟨.hbm, 66, rfl⟩
abbrev main_cst_14 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_15 : Ref sig .tc := ⟨.hbm, 71, rfl⟩
abbrev main_v45 : Ref sig .tc := ⟨.hbm, 72, rfl⟩
abbrev main_v46 : Ref sig .tc := ⟨.hbm, 73, rfl⟩
abbrev main_cst_16 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_17 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_18 : Ref sig .tc := ⟨.hbm, 86, rfl⟩
abbrev main_v57 : Ref sig .tc := ⟨.hbm, 87, rfl⟩
abbrev main_v58 : Ref sig .tc := ⟨.hbm, 88, rfl⟩
abbrev main_cst_19 : Ref sig .tc := ⟨.hbm, 89, rfl⟩
abbrev main_call4_v0 : Ref sig .tc := ⟨.hbm, 90, rfl⟩
abbrev main_call4_v1 : Ref sig .tc := ⟨.hbm, 91, rfl⟩
abbrev main_v59 : Ref sig .tc := ⟨.hbm, 92, rfl⟩
abbrev main_v60 : Ref sig .tc := ⟨.hbm, 93, rfl⟩
abbrev main_cst_20 : Ref sig .tc := ⟨.hbm, 94, rfl⟩
abbrev main_call5_v0 : Ref sig .tc := ⟨.hbm, 95, rfl⟩
abbrev main_call5_v1 : Ref sig .tc := ⟨.hbm, 96, rfl⟩
abbrev main_v61 : Ref sig .tc := ⟨.hbm, 97, rfl⟩
abbrev main_cst_21 : Ref sig .tc := ⟨.hbm, 98, rfl⟩
abbrev main_v62 : Ref sig .tc := ⟨.hbm, 99, rfl⟩
abbrev main_cst_22 : Ref sig .tc := ⟨.hbm, 100, rfl⟩
abbrev main_v63 : Ref sig .tc := ⟨.hbm, 101, rfl⟩
abbrev main_v64 : Ref sig .tc := ⟨.hbm, 102, rfl⟩
abbrev main_cst_23 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_cst_24 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_cst_25 : Ref sig .tc := ⟨.hbm, 111, rfl⟩
abbrev main_v71 : Ref sig .tc := ⟨.hbm, 112, rfl⟩
abbrev main_cst_26 : Ref sig .tc := ⟨.hbm, 113, rfl⟩
abbrev main_v72 : Ref sig .tc := ⟨.hbm, 114, rfl⟩

abbrev nD : Nat := 1
abbrev τ : Topo := Topo.v7x

variable {F : FTy → Type} [FloatOps F]

class Facts₀ : Prop where
  shapeCasts_S65536x128_S128x512x128 : S65536x128.ShapeCasts S128x512x128
  reducesTo_S128x512x128_S128x512_d2 : S128x512x128.ReducesTo [2] S128x512
  h_S_ : 0 < S_.numel
  bcast_S128x512_S128x512x1_0_1 : S128x512.BroadcastsInDim S128x512x1 (![0, 1] : Fin 2 → Fin S128x512x1.rank)
  bcast_S128x512_S128x1x512_0_2 : S128x512.BroadcastsInDim S128x1x512 (![0, 2] : Fin 2 → Fin S128x1x512.rank)
  bcast_S128x512x1_S128x512x512_0_1_2 : S128x512x1.BroadcastsInDim S128x512x512 (![0, 1, 2] : Fin 3 → Fin S128x512x512.rank)
  bcast_S128x1x512_S128x512x512_0_1_2 : S128x1x512.BroadcastsInDim S128x512x512 (![0, 1, 2] : Fin 3 → Fin S128x512x512.rank)
  bcast_S_S128x512x512 : S_.BroadcastsInDim S128x512x512 (![] : Fin 0 → Fin S128x512x512.rank)
  reducesTo_S128x512x512_S128_d1_2 : S128x512x512.ReducesTo [1, 2] S128
  bcast_S_S128 : S_.BroadcastsInDim S128 (![] : Fin 0 → Fin S128.rank)
  reducesTo_S128_S_d0 : S128.ReducesTo [0] S_
  dot_S128x512x128_S128x512x128_S128x512x512_2_2_1_1_0_0_wf : DotDims.WF S128x512x128 S128x512x128 S128x512x512 [2] [2] [1] [1] [0] [0]

variable [Facts₀]

def dot_S128x512x128_S128x512x128_S128x512x512_2_2_1_1_0_0 : DotDims S128x512x128 S128x512x128 S128x512x512 where
  lhsContracting := [2]
  rhsContracting := [2]
  lhsNonContracting := [1]
  rhsNonContracting := [1]
  lhsBatch := [0]
  rhsBatch := [0]
  wf := dot_S128x512x128_S128x512x128_S128x512x512_2_2_1_1_0_0_wf

class Facts : Prop extends Facts₀ where

variable [Facts]
-- ==== Proof.KernelAcc.lean ====
/-
  The kernel's run, read: what the running sum holds after each grid step, and what the program returns.

  The 32 steps fall into three cases. The first step stores a zero in the running sum, reads it back and adds its own
  contribution; a middle step adds its contribution to what the step before left; the last step does the same and then
  stores the running sum divided by 128 in the output block, the only block that is written back. So after step n the
  running sum is a chain over the steps 0..n ('after'), the output array ends as the chain after step 31 divided by
  128, and the program's result is that [1, 1] array seen as a scalar.
-/
import proofs.«171528_j88390426952445_1_alg».proof.Proof.Gen.KernelIdeal.Frame
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]
variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- One step: the running sum 'acc' plus the contribution of the two loaded blocks. -/
def step (x0 x1 : Vec F S4x512x128 .f32) (acc : Vec F S1x1 .f32) : Vec F S1x1 .f32 :=
  k0_pay1 (k0_pay12 x0 x1) (k0_pay13 (k0_pay6 x0) (k0_pay8 x0) (k0_pay10 x0))
    (k0_pay14 (k0_pay7 x1) (k0_pay9 x1) (k0_pay11 x1)) (Scalar.ofBits .f32 0x3B000000#32) acc

/-! ## The three cases -/

/-- A middle step leaves the running sum it found plus its contribution. -/
theorem sum_B (c : Dev nD) (i : grid0.Coords) (a1 : Memref sig .tc .vmem S4x512x128 .f32) (h1 : a1.IsWhole)
    (a2 : Memref sig .tc .vmem S4x512x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 x1 : Vec F S4x512x128 .f32) (xs0 : Vec F S1x1 .f32) :
    sout0_B_0 c i a1 h1 a2 h2 a3 h3 a4 h4 hc0 hc1 x0 x1 xs0 = step x0 x1 xs0 := by
  unfold sout0_B_0
  rw [View.read_writes_eq_canon _ _ _ (scover0_B_0 c i a1 h1 a2 h2 a3 h3 a4 h4 hc0 hc1 x0 x1 xs0)]
  unfold kernelRun0_B
  dsimp only
  sl_unfold_words
  rw [View.canon_unit_zero hz2]
  simp only [View.readAt_eq_ld, h1.read_unread, h2.read_unread, h4.read_unread, View.ld_unit_zero (S := S4x512x128) hz3,
    View.ld_unit_zero (S := S1x1) hz2]
  rfl

/-- The first step leaves the stored zero plus its contribution. -/
theorem sum_A (c : Dev nD) (i : grid0.Coords) (a1 : Memref sig .tc .vmem S4x512x128 .f32) (h1 : a1.IsWhole)
    (a2 : Memref sig .tc .vmem S4x512x128 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 x1 : Vec F S4x512x128 .f32) :
    sout0_A_0 c i a1 h1 a2 h2 a3 h3 a4 h4 hc0 hc1 x0 x1 = step x0 x1 k0_pay3 := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz2, View.readCov_unit_zero (S := S1x1) _ hz2]
  simp only [View.readAt_eq_ld, h1.read_unread, h2.read_unread, View.ld_unit_zero (S := S4x512x128) hz3]
  rfl

/-- The last step leaves the same in the running sum, -/
theorem sum_C (c : Dev nD) (i : grid0.Coords) (a1 : Memref sig .tc .vmem S4x512x128 .f32) (h1 : a1.IsWhole)
    (a2 : Memref sig .tc .vmem S4x512x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S4x512x128 .f32) (xs0 : Vec F S1x1 .f32) :
    sout0_C_0 c i a1 h1 a2 h2 a3 h3 a4 h4 hc0 hc1 x0 x1 xs0 = step x0 x1 xs0 := by
  unfold sout0_C_0
  rw [View.read_writes_eq_canon _ _ _ (scover0_C_0 c i a1 h1 a2 h2 a3 h3 a4 h4 hc0 hc1 x0 x1 xs0)]
  unfold kernelRun0_C
  dsimp only
  sl_unfold_words
  rw [View.canon_unit_zero hz2]
  simp only [View.readAt_eq_ld, h1.read_unread, h2.read_unread, h4.read_unread, View.ld_unit_zero (S := S4x512x128) hz3,
    View.ld_unit_zero (S := S1x1) hz2]
  rfl

/-- and its quotient by 128 in the output block. -/
theorem out_C (c : Dev nD) (i : grid0.Coords) (a1 : Memref sig .tc .vmem S4x512x128 .f32) (h1 : a1.IsWhole)
    (a2 : Memref sig .tc .vmem S4x512x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S4x512x128 .f32) (xs0 : Vec F S1x1 .f32) :
    out0_C_2 c i a1 h1 a2 h2 a3 h3 a4 h4 hc0 hc1 x0 x1 xs0 = k0_pay2 (step x0 x1 xs0) := by
  unfold out0_C_2
  rw [View.read_writes_eq_canon _ _ _ (cover0_C_2 c i a1 h1 a2 h2 a3 h3 a4 h4 hc0 hc1 x0 x1 xs0)]
  unfold kernelRun0_C
  dsimp only
  sl_unfold_words
  rw [View.canon_unit_zero hz2, View.readCov_unit_zero (S := S1x1) _ hz2]
  simp only [View.readAt_eq_ld, h1.read_unread, h2.read_unread, h4.read_unread, View.ld_unit_zero (S := S4x512x128) hz3,
    View.ld_unit_zero (S := S1x1) hz2]
  rfl

/-! ## The running sum after each step -/

/-- The running sum after step n: the first step from the stored zero, each later step from the one before. -/
def after (c : Dev nD) : (n : ℕ) → n < cfg0.N → Vec F S1x1 .f32
  | 0, h => step (iblk m c 0 ⟨0, h⟩) (iblk m c 1 ⟨0, h⟩) k0_pay3
  | n + 1, h => step (iblk m c 0 ⟨n + 1, h⟩) (iblk m c 1 ⟨n + 1, h⟩) (after c n (Nat.lt_of_succ_lt h))

/-- What the carried scratch holds after step n is that running sum: by induction on the step. -/
theorem outsAt_snd (c : Dev nD) : ∀ (n : ℕ) (h : n < cfg0.N), (outsAt0 m c n h).2 = after m c n h
  | 0, h => by
    rw [outsAt0_A m c ⟨0, h⟩ rfl (by dsimp only; omega)]
    dsimp only
    rw [sum_A]
    rfl
  | n + 1, h => by
    have hN : cfg0.N = 32 := N_0
    have h0 : ¬(⟨n + 1, h⟩ : Fin cfg0.N).val % 32 = 0 := by dsimp only; omega
    by_cases h1 : (⟨n + 1, h⟩ : Fin cfg0.N).val % 32 = 31
    · rw [outsAt0_C m c ⟨n + 1, h⟩ h0 h1]
      dsimp only
      rw [sum_C]
      show step _ _ (outsAt0 m c n _).2 = step _ _ (after m c n _)
      rw [outsAt_snd c n]
    · rw [outsAt0_B m c ⟨n + 1, h⟩ h0 h1]
      dsimp only
      rw [sum_B]
      show step _ _ (outsAt0 m c n _).2 = step _ _ (after m c n _)
      rw [outsAt_snd c n]

/-- The last step. -/
abbrev tLast : Fin cfg0.N := ⟨31, by rw [show cfg0.N = 32 from N_0]; decide⟩

/-- The output array's final contents: the running sum after the last step, divided by 128. -/
abbrev result (c : Dev nD) : Buf (Elt F) ((c : Thread nD τ).loc main_v2) := k0_pay2 (after m c 31 tLast.isLt)

/-- What the output block holds after the last step. -/
theorem outsAt_fst_last (c : Dev nD) : (outsAt0 m c 31 tLast.isLt).1 = k0_pay2 (after m c 31 tLast.isLt) := by
  rw [outsAt0_C m c tLast (by decide) (by decide)]
  dsimp only
  rw [out_C]
  show k0_pay2 (step _ _ (outsAt0 m c 30 _).2) = k0_pay2 (step _ _ (after m c 30 _))
  rw [outsAt_snd m c 30]

/-- The one write-back, after the last step, writes it: block (0, 0) of the [1, 1] array is the array. -/
theorem flushed_eq (c : Dev nD) (t : Fin cfg0.N) (hf : (cfg0.win 2).flush t = true) :
    (dats m 0 c).flushed 2 t = ((cfg0.win 2).blk t).view.read (Elt F) (result m c) := by
  have hN : cfg0.N = 32 := N_0
  have h31 : t.val = 31 := by have := (flush0_2 t).mp hf; have := t.isLt; omega
  obtain rfl : t = tLast := Fin.ext h31
  show (cfg0.win 2).cut (grid0.coords tLast) ((dats m 0 c).after 2 tLast) = _
  rw [after0_2, outsAt_fst_last]
  have hz' : (fun a => win0_2.index tLast a * main_v2.ty.shape.size a) = fun _ => 0 := funext fun a => by fin_cases a <;> decide
  exact (Memref.read_access_unit_zero (Elt F) main_v2 hz' (fun a => by rw [congrFun hz' a]; simp) (result m c)).symm

/-- So the output array ends holding it. -/
theorem final_o (c : Dev nD) : (dats m 0 c).arrAt 2 cfg0.N = result m c :=
  (dats m 0 c).arrAt_eq_of_cover 2 (result m c) (flushed_eq m c) fun i =>
    ⟨tLast, (flush0_2 tLast).mpr rfl, by
      show i ∈ ((View.whole main_v2).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩

/-! ## The program's result -/

/-- After the region the program reshapes the [1, 1] output array to a scalar. -/
theorem tail_eq (c : Dev nD) :
    Pipeline.afterTail₀ cfgs (dats m) 0 (V0 m) [hostOps1] c main_v3 = shapeCast S_ (result m c) shapeCasts_S1x1_S_ := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.tc.devRef main_v2)
      = result m c :=
    (Pipeline.withArrays_arr (cfgs 0).spec launch0.win.arr_inj c (V0 m c) _ 2).trans (final_o m c)
  rw [hw]
  rfl

/-- The run, read: the program's result is the final output array as a scalar; the arguments are unchanged. -/
theorem run : θ_run defs (onTc (τ := τ) (main (F := F))) ⟨m, fun _ => 0, ρ⟩ fun r => ∀ c : Dev nD,
      r.2.mem ((c : Thread nD τ).loc main_v3) = shapeCast S_ (result m c) shapeCasts_S1x1_S_
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Acc

end
-- ==== Proof.Energy.lean ====
/-
  The energy distance between two families of point clouds, over the extended reals, and the laws that join its
  two arrangements.

  A cloud is 512 points of 128 coordinates. For clouds A, B the distance of point i of A from point j of B is taken
  from the squared norms and the inner product: d² = (|aᵢ|² + |bⱼ|²) - 2·⟨aᵢ, bⱼ⟩, guarded: where d² > 0 the root of
  d², elsewhere 0 (so every distance is ≥ 0, at the infinities too). The mean distance is written two ways:
    · row by row: each row's sum times 1/512, the sum of those times 1/512;
    · at once: the sum over all 512·512 pairs, divided by 262144.
  Because every distance is ≥ 0, multiplication by the nonnegative real 1/512 distributes over the sums of distances
  on the extended reals, and (1/512)·(1/512) = 1/262144: the two means are equal.
  The loss of a pair of clouds is mean(A,B) - ½·mean(A,A) - ½·mean(B,B); the energy of 128 pairs is the sum of their
  losses divided by 128. A running sum taken four pairs at a time over 32 steps is the sum over the 128 pairs, addition
  on the extended reals being commutative and associative.
-/
import Idealize.ShloMosaic.PureOps.Ideal
import Idealize.ShloMosaic.PureOps.Ideal.Laws
import Idealize.ShloMosaic.Lib.ValueIdx

noncomputable section

namespace Cert.Energy

open Idealize.ShloMosaic

/-! ## The constants -/

theorem c512_eq : Ideal.ofBits .f32 0x3B000000#32 = (((1 : ℝ) / 512 : ℝ) : EReal) := by
  simp [Ideal.ofBits, Ideal.ieee, -EReal.coe_mul]; norm_num

theorem n2_eq : Ideal.ofBits .f32 0x48800000#32 = ((262144 : ℝ) : EReal) := by
  simp [Ideal.ofBits, Ideal.ieee, -EReal.coe_mul]; norm_num

/-! ## One distance -/

/-- The guarded distance from the squared norms a, b and the inner product p. -/
def dst (a b p : EReal) : EReal :=
  Scalar.select (Ideal.cmp .ogt ((a + b) - Ideal.ofBits .f32 0x40000000#32 * p) (Ideal.ofBits .f32 0x00000000#32))
    (Ideal.sqrt (Scalar.select (Ideal.cmp .ogt ((a + b) - Ideal.ofBits .f32 0x40000000#32 * p) (Ideal.ofBits .f32 0x00000000#32))
      ((a + b) - Ideal.ofBits .f32 0x40000000#32 * p) (Ideal.ofBits .f32 0x3F800000#32)))
    (Ideal.ofBits .f32 0x00000000#32)

theorem sqrt_nonneg_of_pos {d : EReal} (h : 0 < d) : 0 ≤ Ideal.sqrt d := by
  induction d using EReal.rec with
  | bot => exact absurd h (not_lt.mpr bot_le)
  | top => exact le_top
  | coe r =>
    have hr : 0 < r := EReal.coe_pos.mp h
    rw [Ideal.sqrt_coe, if_neg (not_lt.mpr hr.le)]
    exact EReal.coe_nonneg.mpr (Real.sqrt_nonneg r)

theorem dst_nonneg (a b p : EReal) : 0 ≤ dst a b p := by
  unfold dst
  generalize (a + b) - Ideal.ofBits .f32 0x40000000#32 * p = d
  rw [Ideal.ofBits_zero_f32]
  by_cases h : Ideal.cmp .ogt d 0 = 1
  · have hd : (0 : EReal) < d := by
      unfold Ideal.cmp at h
      by_contra hn
      simp [hn] at h
    simp only [Scalar.select, h, if_true]
    exact sqrt_nonneg_of_pos hd
  · simp only [Scalar.select, h, if_false]
    exact le_refl _

/-! ## Sums of nonnegative extended reals times a nonnegative real -/

theorem sum_mul_of_nonneg {ι : Type*} (s : Finset ι) (g : ι → EReal) (hg : ∀ i ∈ s, 0 ≤ g i) (c : EReal) :
    (∑ i ∈ s, g i) * c = ∑ i ∈ s, g i * c := by
  classical
  induction s using Finset.induction_on with
  | empty => simp
  | insert a s ha ih =>
    rw [Finset.sum_insert ha, Finset.sum_insert ha,
      EReal.right_distrib_of_nonneg (hg a (Finset.mem_insert_self a s))
        (Finset.sum_nonneg fun i hi => hg i (Finset.mem_insert_of_mem hi)),
      ih fun i hi => hg i (Finset.mem_insert_of_mem hi)]

/-- Row sums scaled, summed and scaled again are the whole sum scaled by the product. -/
theorem rows_scaled {ι κ : Type*} [Fintype ι] [Fintype κ] (f : ι → κ → EReal) (hf : ∀ i j, 0 ≤ f i j)
    (c : EReal) (hc : 0 ≤ c) :
    (∑ i, (∑ j, f i j) * c) * c = (∑ i, ∑ j, f i j) * (c * c) := by
  rw [sum_mul_of_nonneg _ _ (fun i _ => mul_nonneg (Finset.sum_nonneg fun j _ => hf i j) hc),
    sum_mul_of_nonneg _ _ (fun i _ => Finset.sum_nonneg fun j _ => hf i j)]
  exact Finset.sum_congr rfl fun i _ => mul_assoc _ _ _

/-! ## Clouds -/

/-- The squared norm of point i. -/
def sq (A : Fin 512 → Fin 128 → EReal) (i : Fin 512) : EReal := ∑ k : Fin 128, A i k * A i k

/-- The inner product of point i of A with point j of B. -/
def ip (A B : Fin 512 → Fin 128 → EReal) (i j : Fin 512) : EReal := ∑ k : Fin 128, A i k * B j k

/-- The distance of point i of A from point j of B. -/
def D (A B : Fin 512 → Fin 128 → EReal) (i j : Fin 512) : EReal := dst (sq A i) (sq B j) (ip A B i j)

/-- The rows' scaled sums, summed: the mean but for its last factor 1/512. -/
def rows (A B : Fin 512 → Fin 128 → EReal) : EReal :=
  ∑ i : Fin 512, (∑ j : Fin 512, D A B i j) * Ideal.ofBits .f32 0x3B000000#32

/-- The mean distance, row by row. -/
def meanRows (A B : Fin 512 → Fin 128 → EReal) : EReal := rows A B * Ideal.ofBits .f32 0x3B000000#32

/-- The mean distance, at once. -/
def mean (A B : Fin 512 → Fin 128 → EReal) : EReal :=
  Ideal.div (Ideal.ofBits .f32 0x00000000#32 + ∑ i : Fin 512, ∑ j : Fin 512, D A B i j) (Ideal.ofBits .f32 0x48800000#32)

theorem meanRows_eq_mean (A B : Fin 512 → Fin 128 → EReal) : meanRows A B = mean A B := by
  unfold meanRows rows mean
  have hc : (0 : EReal) ≤ (((1 : ℝ) / 512 : ℝ) : EReal) := EReal.coe_nonneg.mpr (by norm_num)
  rw [c512_eq, n2_eq, Ideal.ofBits_zero_f32, zero_add, Ideal.div_coe (by norm_num),
    rows_scaled (fun i j => D A B i j) (fun i j => dst_nonneg _ _ _) _ hc, ← EReal.coe_mul]
  norm_num

/-- The loss of one pair of clouds. -/
def loss (A B : Fin 512 → Fin 128 → EReal) : EReal :=
  (mean A B - Ideal.ofBits .f32 0x3F000000#32 * mean A A) - Ideal.ofBits .f32 0x3F000000#32 * mean B B

/-- The loss with the means taken row by row, the last one's final factor applied apart. -/
theorem loss_rows (A B : Fin 512 → Fin 128 → EReal) :
    (meanRows A B - Ideal.ofBits .f32 0x3F000000#32 * meanRows A A)
      - Ideal.ofBits .f32 0x3F000000#32 * (rows B B * Ideal.ofBits .f32 0x3B000000#32) = loss A B := by
  unfold loss
  rw [← meanRows_eq_mean A B, ← meanRows_eq_mean A A, ← meanRows_eq_mean B B]
  rfl

/-! ## The families -/

/-- A [128, 512, 128] array as a family of 128 clouds. -/
def fam (Z : (⟨3, ![128, 512, 128]⟩ : Shape).Idx → EReal) : Fin 128 → Fin 512 → Fin 128 → EReal :=
  fun b i k => Z (ValueIdx.ix3 b i k)

/-- A sum over the indices of a vector is the sum over its coordinate. -/
theorem sum_idx1 {n : ℕ} (f : (⟨1, ![n]⟩ : Shape).Idx → EReal) : ∑ j, f j = ∑ a : Fin n, f (ValueIdx.ix1 a) := by
  let e : (⟨1, ![n]⟩ : Shape).Idx ≃ Fin n :=
    ⟨fun i => i 0, fun a => ValueIdx.ix1 a, fun i => (ValueIdx.eq_ix1 i).symm, fun _ => rfl⟩
  exact (Equiv.sum_comp e.symm f).symm

/-- The loss of pair b of the families, 0 past the last pair. -/
def lossN (X Y : Fin 128 → Fin 512 → Fin 128 → EReal) (b : ℕ) : EReal :=
  if h : b < 128 then loss (X ⟨b, h⟩) (Y ⟨b, h⟩) else 0

/-- The energy: the losses' sum over the 128 pairs, divided by 128. -/
def energy (X Y : Fin 128 → Fin 512 → Fin 128 → EReal) : EReal :=
  Ideal.div (Ideal.ofBits .f32 0x00000000#32 + ∑ b : Fin 128, loss (X b) (Y b)) (Ideal.ofBits .f32 0x43000000#32)

/-- The running sum: from zero, step 0's part, then one step's part at a time. -/
def chain (S : ℕ → EReal) : ℕ → EReal
  | 0 => Ideal.ofBits .f32 0x00000000#32 + S 0
  | n + 1 => chain S n + S (n + 1)

theorem chain_eq (S : ℕ → EReal) (n : ℕ) :
    chain S n = Ideal.ofBits .f32 0x00000000#32 + ∑ t ∈ Finset.range (n + 1), S t := by
  induction n with
  | zero => simp [chain]
  | succ n ih => rw [chain, ih, Finset.sum_range_succ _ (n + 1), add_assoc]

/-- A sum over a slabs of b consecutive naturals is the sum over the first a·b naturals. -/
theorem sum_slabs (f : ℕ → EReal) (a b : ℕ) :
    ∑ t ∈ Finset.range a, ∑ g ∈ Finset.range b, f (b * t + g) = ∑ n ∈ Finset.range (a * b), f n := by
  induction a with
  | zero => simp
  | succ a ih =>
    rw [Finset.sum_range_succ, ih, Nat.succ_mul, Finset.sum_range_add, Nat.mul_comm b a]

/-- The running sum over 32 steps of four pairs each, divided by 128, is the energy. -/
theorem chain_energy (X Y : Fin 128 → Fin 512 → Fin 128 → EReal) :
    Ideal.div (chain (fun t => ∑ g : Fin 4, lossN X Y (4 * t + g.val)) 31) (Ideal.ofBits .f32 0x43000000#32)
      = energy X Y := by
  unfold energy
  rw [chain_eq]
  congr 2
  have h4 : ∀ t : ℕ, (∑ g : Fin 4, lossN X Y (4 * t + g.val)) = ∑ g ∈ Finset.range 4, lossN X Y (4 * t + g) :=
    fun t => Fin.sum_univ_eq_sum_range (fun g => lossN X Y (4 * t + g)) 4
  rw [Finset.sum_congr rfl fun t _ => h4 t, sum_slabs (lossN X Y) 32 4,
    ← Fin.sum_univ_eq_sum_range (lossN X Y) 128]
  exact Finset.sum_congr rfl fun b _ => by
    unfold lossN
    rw [dif_pos b.isLt]

end Cert.Energy

end
-- ==== Proof.KernelClouds.lean ====
/-
  One grid step of the kernel, read at the extended reals.

  A step loads a [4, 512, 128] block of each argument: four pairs of clouds. From them it forms, pair by pair, the
  points' squared norms as a column and (transposed) as a row, the three matrices of inner products on the matrix
  unit, the guarded distances, the row sums times 1/512 and their sum (times 1/512 again), and the four losses,
  which it adds up and adds to the running sum. Read at an index, each of these is the corresponding quantity of
  'Cert.Energy' for the pair's clouds.
-/
import proofs.«171528_j88390426952445_1_alg».proof.Proof.Gen.KernelIdeal.Skeleton
import proofs.«171528_j88390426952445_1_alg».proof.Proof.Energy
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Clouds

open Cert.KernelIdeal Cert.KernelIdeal.Gen Idealize.ShloMosaic Idealize.ShloMosaic.ValueIdx
open Cert.Energy

/-- Cloud g of a [4, 512, 128] block. -/
def cl (x : S4x512x128.Idx → EReal) (g : Fin 4) : Fin 512 → Fin 128 → EReal := fun i k => x (ix3 g i k)

/-! ## Layout: a trailing unit axis added, a column or a row spread to the square -/

/-- A [4, 512] array cast to [4, 512, 1] reads, at (g, i, u), the operand at (g, i). -/
theorem cast_col {α : Type} (v : S4x512.Idx → α) (h : S4x512.ShapeCasts S4x512x1) (g : Fin 4) (i : Fin 512) (u : Fin 1) :
    shapeCast S4x512x1 v h (ix3 g i u) = v (ix2 g i) :=
  shapeCast_apply v h _ _ (by
    have hu : u.val = 0 := by omega
    rw [Shape.rowMajor_val_two, Shape.rowMajor_val_three]
    show g.val * 512 + i.val = (g.val * 512 + i.val) * 1 + u.val
    omega)

/-- A [4, 1] array cast to [4, 1, 1] reads, at (g, u, w), the operand at (g, u). -/
theorem cast_one {α : Type} (v : S4x1.Idx → α) (h : S4x1.ShapeCasts S4x1x1) (g : Fin 4) (u w : Fin 1) :
    shapeCast S4x1x1 v h (ix3 g u w) = v (ix2 g u) :=
  shapeCast_apply v h _ _ (by
    have hw : w.val = 0 := by omega
    rw [Shape.rowMajor_val_two, Shape.rowMajor_val_three]
    show g.val * 1 + u.val = (g.val * 1 + u.val) * 1 + w.val
    omega)

/-- A [4, 512, 1] column spread to [4, 512, 512] reads, at (g, i, j), the column's entry (g, i). -/
theorem spread_col {α : Type} (v : S4x512x1.Idx → α) (h : S4x512x1.Broadcasts S4x512x512) (g : Fin 4) (i j : Fin 512) :
    broadcastTo S4x512x512 v h (ix3 g i j) = v (ix3 g i (0 : Fin 1)) :=
  broadcastTo_apply v h _ _ fun a => by
    match a with
    | ⟨0, _⟩ => rfl
    | ⟨1, _⟩ => rfl
    | ⟨2, _⟩ => rfl

/-- A [4, 1, 512] row spread to [4, 512, 512] reads, at (g, i, j), the row's entry (g, j). -/
theorem spread_row {α : Type} (v : S4x1x512.Idx → α) (h : S4x1x512.Broadcasts S4x512x512) (g : Fin 4) (i j : Fin 512) :
    broadcastTo S4x512x512 v h (ix3 g i j) = v (ix3 g (0 : Fin 1) j) :=
  broadcastTo_apply v h _ _ fun a => by
    match a with
    | ⟨0, _⟩ => rfl
    | ⟨1, _⟩ => rfl
    | ⟨2, _⟩ => rfl

/-! ## Squared norms -/

/-- The sum of squares along the coordinate axis, kept as a column: at (g, i) the squared norm of point i of cloud g. -/
theorem sq_col (x : Vec Ideal S4x512x128 .f32) (g : Fin 4) (i : Fin 512) (u : Fin 1) :
    k0_pay8 (F := Ideal) x (ix3 g i u) = sq (cl x g) i := by
  have h4 : k0_pay4 (F := Ideal) x = x := shapeCast_self x _
  unfold k0_pay8
  rw [h4]
  refine (cast_col _ _ g i u).trans ?_
  refine (Ideal.multiReduction_add_single _ 0x00000000#32 reduces_S4x512x128_S4x512 _ _ (ix2 g i)).trans ?_
  refine Finset.sum_congr rfl fun k _ => ?_
  have e : reduces_S4x512x128_S4x512.lift (ix2 g i) k = ix3 g i k := funext fun a => Fin.ext (by
    match a with | ⟨0, _⟩ => rfl | ⟨1, _⟩ => rfl | ⟨2, _⟩ => rfl)
  rw [e]; rfl

theorem sq_col' (x : Vec Ideal S4x512x128 .f32) (g : Fin 4) (i : Fin 512) (u : Fin 1) :
    k0_pay9 (F := Ideal) x (ix3 g i u) = sq (cl x g) i := by
  have h5 : k0_pay5 (F := Ideal) x = x := shapeCast_self x _
  unfold k0_pay9
  rw [h5]
  refine (cast_col _ _ g i u).trans ?_
  refine (Ideal.multiReduction_add_single _ 0x00000000#32 reduces_S4x512x128_S4x512 _ _ (ix2 g i)).trans ?_
  refine Finset.sum_congr rfl fun k _ => ?_
  have e : reduces_S4x512x128_S4x512.lift (ix2 g i) k = ix3 g i k := funext fun a => Fin.ext (by
    match a with | ⟨0, _⟩ => rfl | ⟨1, _⟩ => rfl | ⟨2, _⟩ => rfl)
  rw [e]; rfl

/-- The column transposed to a row: at (g, j) the squared norm of point j of cloud g. -/
theorem sq_row (x : Vec Ideal S4x512x128 .f32) (g : Fin 4) (u : Fin 1) (j : Fin 512) :
    k0_pay10 (F := Ideal) x (ix3 g u j) = sq (cl x g) j := by
  unfold k0_pay10
  exact (transpose_ix3_021_apply _ _ g u j).trans (sq_col x g j u)

theorem sq_row' (x : Vec Ideal S4x512x128 .f32) (g : Fin 4) (u : Fin 1) (j : Fin 512) :
    k0_pay11 (F := Ideal) x (ix3 g u j) = sq (cl x g) j := by
  unfold k0_pay11
  exact (transpose_ix3_021_apply _ _ g u j).trans (sq_col' x g j u)

/-! ## Inner products -/

/-- The narrowed copy of a block is the block (a change of format is the identity on the extended reals). -/
theorem narrow_x (x : Vec Ideal S4x512x128 .f32) (j : S4x512x128.Idx) : k0_pay6 (F := Ideal) x j = x j := by
  have h4 : k0_pay4 (F := Ideal) x = x := shapeCast_self x _
  unfold k0_pay6
  rw [h4]; rfl

theorem narrow_y (x : Vec Ideal S4x512x128 .f32) (j : S4x512x128.Idx) : k0_pay7 (F := Ideal) x j = x j := by
  have h5 : k0_pay5 (F := Ideal) x = x := shapeCast_self x _
  unfold k0_pay7
  rw [h5]; rfl

theorem lhs_0 (i : S4x512x512.Idx) (q : dot_S4x512x128_S4x512x128_S4x512x512_2_2_1_1_0_0.contr.Idx) : (dot_S4x512x128_S4x512x128_S4x512x512_2_2_1_1_0_0.lhsIdx i q 0).val = (i 0).val := by
  unfold DotDims.lhsIdx
  rw [dif_pos (show (0 : Fin S4x512x128.rank) ∈ dot_S4x512x128_S4x512x128_S4x512x512_2_2_1_1_0_0.lhsBatch by decide)]
  rfl
theorem lhs_1 (i : S4x512x512.Idx) (q : dot_S4x512x128_S4x512x128_S4x512x512_2_2_1_1_0_0.contr.Idx) : (dot_S4x512x128_S4x512x128_S4x512x512_2_2_1_1_0_0.lhsIdx i q 1).val = (i 1).val := by
  unfold DotDims.lhsIdx
  rw [dif_neg (show ¬(1 : Fin S4x512x128.rank) ∈ dot_S4x512x128_S4x512x128_S4x512x512_2_2_1_1_0_0.lhsBatch by decide), dif_pos (show (1 : Fin S4x512x128.rank) ∈ dot_S4x512x128_S4x512x128_S4x512x512_2_2_1_1_0_0.lhsNonContracting by decide)]
  rfl
theorem lhs_2 (i : S4x512x512.Idx) (q : dot_S4x512x128_S4x512x128_S4x512x512_2_2_1_1_0_0.contr.Idx) : (dot_S4x512x128_S4x512x128_S4x512x512_2_2_1_1_0_0.lhsIdx i q 2).val = (q ⟨0, by decide⟩).val :=
  dot_S4x512x128_S4x512x128_S4x512x512_2_2_1_1_0_0.lhsIdx_val_of_single rfl i q
theorem rhs_0 (i : S4x512x512.Idx) (q : dot_S4x512x128_S4x512x128_S4x512x512_2_2_1_1_0_0.contr.Idx) : (dot_S4x512x128_S4x512x128_S4x512x512_2_2_1_1_0_0.rhsIdx i q 0).val = (i 0).val := by
  unfold DotDims.rhsIdx
  rw [dif_pos (show (0 : Fin S4x512x128.rank) ∈ dot_S4x512x128_S4x512x128_S4x512x512_2_2_1_1_0_0.rhsBatch by decide)]
  rfl
theorem rhs_1 (i : S4x512x512.Idx) (q : dot_S4x512x128_S4x512x128_S4x512x512_2_2_1_1_0_0.contr.Idx) : (dot_S4x512x128_S4x512x128_S4x512x512_2_2_1_1_0_0.rhsIdx i q 1).val = (i 2).val := by
  unfold DotDims.rhsIdx
  rw [dif_neg (show ¬(1 : Fin S4x512x128.rank) ∈ dot_S4x512x128_S4x512x128_S4x512x512_2_2_1_1_0_0.rhsBatch by decide), dif_pos (show (1 : Fin S4x512x128.rank) ∈ dot_S4x512x128_S4x512x128_S4x512x512_2_2_1_1_0_0.rhsNonContracting by decide)]
  rfl
theorem rhs_2 (i : S4x512x512.Idx) (q : dot_S4x512x128_S4x512x128_S4x512x512_2_2_1_1_0_0.contr.Idx) : (dot_S4x512x128_S4x512x128_S4x512x512_2_2_1_1_0_0.rhsIdx i q 2).val = (q ⟨0, by decide⟩).val :=
  dot_S4x512x128_S4x512x128_S4x512x512_2_2_1_1_0_0.rhsIdx_val_of_single rfl i q

/-- The batched product into a zero accumulator, at (g, i, j): the sum over the coordinate k of the left operand at
    (g, i, k) times the right operand at (g, j, k). -/
theorem gram (a b : FVec Ideal S4x512x128 .bf16) (g : Fin 4) (i j : Fin 512) :
    matmul dot_S4x512x128_S4x512x128_S4x512x512_2_2_1_1_0_0 none a b (constant S4x512x512 .f32 0x00000000#32) (ix3 g i j)
      = ∑ k : Fin 128, a (ix3 g i k) * b (ix3 g j k) := by
  refine (Ideal.matmul_constant_zero_apply dot_S4x512x128_S4x512x128_S4x512x512_2_2_1_1_0_0 none a b (ix3 g i j)).trans ?_
  rw [← Equiv.sum_comp (ValueIdx.contrEquiv1 dot_S4x512x128_S4x512x128_S4x512x512_2_2_1_1_0_0 128 rfl rfl).symm]
  refine Finset.sum_congr rfl fun k _ => ?_
  have hk := ValueIdx.contrEquiv1_symm_val dot_S4x512x128_S4x512x128_S4x512x512_2_2_1_1_0_0 128 rfl rfl k
  have el : dot_S4x512x128_S4x512x128_S4x512x512_2_2_1_1_0_0.lhsIdx (ix3 g i j) ((ValueIdx.contrEquiv1 dot_S4x512x128_S4x512x128_S4x512x512_2_2_1_1_0_0 128 rfl rfl).symm k) = ix3 g i k := funext fun a => Fin.ext (by
    match a with
    | ⟨0, _⟩ => exact lhs_0 _ _
    | ⟨1, _⟩ => exact lhs_1 _ _
    | ⟨2, _⟩ => exact (lhs_2 _ _).trans hk)
  have er : dot_S4x512x128_S4x512x128_S4x512x512_2_2_1_1_0_0.rhsIdx (ix3 g i j) ((ValueIdx.contrEquiv1 dot_S4x512x128_S4x512x128_S4x512x512_2_2_1_1_0_0 128 rfl rfl).symm k) = ix3 g j k := funext fun a => Fin.ext (by
    match a with
    | ⟨0, _⟩ => exact rhs_0 _ _
    | ⟨1, _⟩ => exact rhs_1 _ _
    | ⟨2, _⟩ => exact (rhs_2 _ _).trans hk)
  rw [el, er]

theorem gram_xy (x y : Vec Ideal S4x512x128 .f32) (g : Fin 4) (i j : Fin 512) :
    matmul dot_S4x512x128_S4x512x128_S4x512x512_2_2_1_1_0_0 none (k0_pay6 (F := Ideal) x) (k0_pay7 (F := Ideal) y) (constant S4x512x512 .f32 0x00000000#32) (ix3 g i j)
      = ip (cl x g) (cl y g) i j := by
  rw [gram]
  exact Finset.sum_congr rfl fun k _ => by rw [narrow_x, narrow_y]; rfl

theorem gram_xx (x : Vec Ideal S4x512x128 .f32) (g : Fin 4) (i j : Fin 512) :
    matmul dot_S4x512x128_S4x512x128_S4x512x512_2_2_1_1_0_0 none (k0_pay6 (F := Ideal) x) (k0_pay6 (F := Ideal) x) (constant S4x512x512 .f32 0x00000000#32) (ix3 g i j)
      = ip (cl x g) (cl x g) i j := by
  rw [gram]
  exact Finset.sum_congr rfl fun k _ => by rw [narrow_x, narrow_x]; rfl

theorem gram_yy (y : Vec Ideal S4x512x128 .f32) (g : Fin 4) (i j : Fin 512) :
    matmul dot_S4x512x128_S4x512x128_S4x512x512_2_2_1_1_0_0 none (k0_pay7 (F := Ideal) y) (k0_pay7 (F := Ideal) y) (constant S4x512x512 .f32 0x00000000#32) (ix3 g i j)
      = ip (cl y g) (cl y g) i j := by
  rw [gram]
  exact Finset.sum_congr rfl fun k _ => by rw [narrow_y, narrow_y]; rfl

/-! ## The distances of one step and their scaled row sums -/

section
variable {F : FTy → Type} [FloatOps F]

/-- What the step does with a matrix of inner products M, a column of squared norms and a row of squared norms: the
    guarded distances, each row's sum times 1/512, those summed down the rows — a [4, 1, 1] array, one entry per pair.
    (The operations are the program's own, from the two spreads to the second sum; the step does this three times.) -/
def rowsOf (M : FVec F S4x512x512 .f32) (col : FVec F S4x512x1 .f32) (row : FVec F S4x1x512 .f32) : FVec F S4x1x1 .f32 :=
  have v18 : FVec F S4x512x512 .f32 := broadcastTo S4x512x512 col broadcasts_S4x512x1_S4x512x512
  have v19 : FVec F S4x512x512 .f32 := broadcastTo S4x512x512 row broadcasts_S4x1x512_S4x512x512
  have v20 : FVec F S4x512x512 .f32 := addf v18 v19
  have cst_8 : F .f32 := Scalar.ofBits .f32 0x40000000#32
  have v21 : FVec F S4x512x512 .f32 := broadcast S4x512x512 cst_8
  have v22 : FVec F S4x512x512 .f32 := mulf v21 M
  have v23 : FVec F S4x512x512 .f32 := subf v20 v22
  have cst_9 : F .f32 := Scalar.ofBits .f32 0x00000000#32
  have v24 : FVec F S4x512x512 .f32 := broadcast S4x512x512 cst_9
  have v25 : IVec S4x512x512 1 := cmpf .ogt v23 v24
  have cst_10 : F .f32 := Scalar.ofBits .f32 0x3F800000#32
  have v26 : FVec F S4x512x512 .f32 := broadcast S4x512x512 cst_10
  have v27 : FVec F S4x512x512 .f32 := select v25 v23 v26
  have v28 : FVec F S4x512x512 .f32 := sqrt v27
  have cst_11 : F .f32 := Scalar.ofBits .f32 0x00000000#32
  have v29 : FVec F S4x512x512 .f32 := broadcast S4x512x512 cst_11
  have v30 : FVec F S4x512x512 .f32 := select v25 v28 v29
  have v31 : FVec F S4x512 .f32 := multiReduction .add [2] S4x512 v30 0x00000000#32 reduces_S4x512x512_S4x512 (.inl rfl) rfl
  have v32 : FVec F S4x512x1 .f32 := shapeCast S4x512x1 v31 shapeCasts_S4x512_S4x512x1
  have cst_13 : F .f32 := Scalar.ofBits .f32 0x3B000000#32
  have v33 : FVec F S4x512x1 .f32 := broadcast S4x512x1 cst_13
  have v34 : FVec F S4x512x1 .f32 := mulf v32 v33
  have v35 : FVec F S4x1 .f32 := multiReduction .add [1] S4x1 v34 0x00000000#32 reduces_S4x512x1_S4x1 (.inl rfl) rfl
  have v36 : FVec F S4x1x1 .f32 := shapeCast S4x1x1 v35 shapeCasts_S4x1_S4x1x1
  v36

/-- The three uses. -/
theorem pay12_eq (x0 x1 : Vec F S4x512x128 .f32) :
    k0_pay12 x0 x1 = mulf (rowsOf (matmul dot_S4x512x128_S4x512x128_S4x512x512_2_2_1_1_0_0 none (k0_pay6 x0) (k0_pay7 x1) (constant S4x512x512 .f32 0x00000000#32))
      (k0_pay8 x0) (k0_pay11 x1)) (broadcast S4x1x1 (Scalar.ofBits .f32 0x3B000000#32)) := rfl

theorem pay13_eq (v7 : FVec F S4x512x128 .bf16) (v11 : FVec F S4x512x1 .f32) (v15 : FVec F S4x1x512 .f32) :
    k0_pay13 v7 v11 v15 = mulf (rowsOf (matmul dot_S4x512x128_S4x512x128_S4x512x512_2_2_1_1_0_0 none v7 v7 (constant S4x512x512 .f32 0x00000000#32)) v11 v15)
      (broadcast S4x1x1 (Scalar.ofBits .f32 0x3B000000#32)) := rfl

theorem pay14_eq (v8 : FVec F S4x512x128 .bf16) (v14 : FVec F S4x512x1 .f32) (v16 : FVec F S4x1x512 .f32) :
    k0_pay14 v8 v14 v16 = rowsOf (matmul dot_S4x512x128_S4x512x128_S4x512x512_2_2_1_1_0_0 none v8 v8 (constant S4x512x512 .f32 0x00000000#32)) v14 v16 := rfl

end

/-- Read at pair g: the sum over the rows i of (the sum over j of the distance from the column's entry i, the row's
    entry j and the product's entry (i, j)) times 1/512. -/
theorem rowsOf_apply (M : FVec Ideal S4x512x512 .f32) (col : FVec Ideal S4x512x1 .f32) (row : FVec Ideal S4x1x512 .f32)
    (g : Fin 4) (u w : Fin 1) :
    rowsOf (F := Ideal) M col row (ix3 g u w)
      = ∑ i : Fin 512, (∑ j : Fin 512, dst (col (ix3 g i (0 : Fin 1))) (row (ix3 g (0 : Fin 1) j)) (M (ix3 g i j)))
          * Ideal.ofBits .f32 0x3B000000#32 := by
  unfold rowsOf
  refine (cast_one _ _ g u w).trans ?_
  refine (Ideal.multiReduction_add_single _ 0x00000000#32 reduces_S4x512x1_S4x1 _ _ (ix2 g u)).trans ?_
  refine Finset.sum_congr rfl fun i _ => ?_
  have e : reduces_S4x512x1_S4x1.lift (ix2 g u) i = ix3 g i u := funext fun a => Fin.ext (by
    match a with | ⟨0, _⟩ => rfl | ⟨1, _⟩ => rfl | ⟨2, _⟩ => rfl)
  rw [e]
  refine congrArg (· * Ideal.ofBits .f32 0x3B000000#32) ?_
  refine (cast_col _ _ g i u).trans ?_
  refine (Ideal.multiReduction_add_single _ 0x00000000#32 reduces_S4x512x512_S4x512 _ _ (ix2 g i)).trans ?_
  refine Finset.sum_congr rfl fun j _ => ?_
  have e2 : reduces_S4x512x512_S4x512.lift (ix2 g i) j = ix3 g i j := funext fun a => Fin.ext (by
    match a with | ⟨0, _⟩ => rfl | ⟨1, _⟩ => rfl | ⟨2, _⟩ => rfl)
  rw [e2]
  have hc := spread_col col broadcasts_S4x512x1_S4x512x512 g i j
  have hr := spread_row row broadcasts_S4x1x512_S4x512x512 g i j
  unfold dst
  rw [← hc, ← hr]
  rfl

/-! ## The three means of a step, pair by pair -/

theorem cross_mean (x0 x1 : Vec Ideal S4x512x128 .f32) (g : Fin 4) (u w : Fin 1) :
    k0_pay12 (F := Ideal) x0 x1 (ix3 g u w) = meanRows (cl x0 g) (cl x1 g) := by
  rw [pay12_eq]
  show rowsOf _ _ _ (ix3 g u w) * Ideal.ofBits .f32 0x3B000000#32 = _
  rw [rowsOf_apply]
  simp only [sq_col, sq_row', gram_xy]
  rfl

theorem xx_mean (x0 : Vec Ideal S4x512x128 .f32) (g : Fin 4) (u w : Fin 1) :
    k0_pay13 (F := Ideal) (k0_pay6 x0) (k0_pay8 x0) (k0_pay10 x0) (ix3 g u w) = meanRows (cl x0 g) (cl x0 g) := by
  rw [pay13_eq]
  show rowsOf _ _ _ (ix3 g u w) * Ideal.ofBits .f32 0x3B000000#32 = _
  rw [rowsOf_apply]
  simp only [sq_col, sq_row, gram_xx]
  rfl

theorem yy_rows (x1 : Vec Ideal S4x512x128 .f32) (g : Fin 4) (u w : Fin 1) :
    k0_pay14 (F := Ideal) (k0_pay7 x1) (k0_pay9 x1) (k0_pay11 x1) (ix3 g u w) = rows (cl x1 g) (cl x1 g) := by
  rw [pay14_eq, rowsOf_apply]
  simp only [sq_col', sq_row', gram_yy]
  rfl

/-! ## The step's contribution to the running sum -/

/-- The last payload, at its one entry: the running sum read before, plus the sum over the four pairs of
    (cross - ½·xx) - ½·(yy's rows · 1/512). -/
theorem step_apply (v38 v60 v80 : FVec Ideal S4x1x1 .f32) (c : Ideal .f32) (v90 : Vec Ideal S1x1 .f32) (a b : Fin 1) :
    k0_pay1 (F := Ideal) v38 v60 v80 c v90 (ix2 a b)
      = v90 (ix2 a b) + ∑ g : Fin 4, ((v38 (ix3 g a b) - Ideal.ofBits .f32 0x3F000000#32 * v60 (ix3 g a b))
          - Ideal.ofBits .f32 0x3F000000#32 * (v80 (ix3 g a b) * c)) := by
  unfold k0_pay1
  refine (congrFun (shapeCast_self _ _) _).trans ?_
  refine congrArg (v90 (ix2 a b) + ·) ?_
  refine (Ideal.multiReduction_add_single _ 0x00000000#32 reduces_S4x1x1_S1x1 _ _ (ix2 a b)).trans ?_
  refine Finset.sum_congr rfl fun g _ => ?_
  have e : reduces_S4x1x1_S1x1.lift (ix2 a b) g = ix3 g a b := funext fun d => Fin.ext (by
    match d with | ⟨0, _⟩ => rfl | ⟨1, _⟩ => rfl | ⟨2, _⟩ => rfl)
  rw [e]; rfl

/-- One step adds the four pairs' losses to the running sum. -/
theorem acc_apply (x0 x1 : Vec Ideal S4x512x128 .f32) (v90 : Vec Ideal S1x1 .f32) (a b : Fin 1) :
    k0_pay1 (F := Ideal) (k0_pay12 x0 x1) (k0_pay13 (k0_pay6 x0) (k0_pay8 x0) (k0_pay10 x0))
        (k0_pay14 (k0_pay7 x1) (k0_pay9 x1) (k0_pay11 x1)) (Scalar.ofBits .f32 0x3B000000#32) v90 (ix2 a b)
      = v90 (ix2 a b) + ∑ g : Fin 4, loss (cl x0 g) (cl x1 g) := by
  rw [step_apply]
  simp only [cross_mean, xx_mean, yy_rows]
  exact congrArg (v90 (ix2 a b) + ·) (Finset.sum_congr rfl fun g _ => loss_rows _ _)

end Cert.KernelIdeal.Clouds

end
-- ==== Proof.KernelEnergy.lean ====
/-
  The kernel's result is the energy of its two arguments seen as families of clouds.

  The region finds each argument reshaped to [128, 512, 128]: a family of 128 clouds. The block a step loads is four
  consecutive clouds of the family (step t: clouds 4t .. 4t+3), so a step's contribution is the sum of the four pairs'
  losses, the running sum after step n is the chain of 'Cert.Energy' over the steps' contributions, and the program's
  result — the chain after the last step divided by 128 — is the energy.
-/
import proofs.«171528_j88390426952445_1_alg».proof.Proof.KernelAcc
import proofs.«171528_j88390426952445_1_alg».proof.Proof.KernelClouds

noncomputable section

open Idealize.ShloMosaic Idealize.ShloMosaic.TcCoe Idealize.SL.Sem
open Idealize.ShloMosaic.Pipeline (Dat)

namespace Cert.KernelIdeal.Acc

open Cert.KernelIdeal Cert.KernelIdeal.Gen Cert.KernelIdeal.Clouds Idealize.ShloMosaic.ValueIdx Cert.Energy

variable (m : (ℓ : Loc nD τ sig) → Buf (Elt Ideal) ℓ) (ρ : Dev nD → PrngReg)

/-! ## The arrays the region finds -/

/-- The first argument as the region finds it: reshaped to [128, 512, 128]. -/
theorem V_v0 (c : Dev nD) :
    (V m c main_v0 : S128x512x128.Idx → EReal)
      = shapeCast S128x512x128 (m ((c : Thread nD τ).loc main_arg0)) shapeCasts_S65536x128_S128x512x128 := by
  show StableHlo.after hostOps0 (fun b => m (c, b)) (Proc.devRef .tc main_v0) = _
  after_results
  rfl

/-- The second argument likewise. -/
theorem V_v1 (c : Dev nD) :
    (V m c main_v1 : S128x512x128.Idx → EReal)
      = shapeCast S128x512x128 (m ((c : Thread nD τ).loc main_arg1)) shapeCasts_S65536x128_S128x512x128 := by
  show StableHlo.after hostOps0 (fun b => m (c, b)) (Proc.devRef .tc main_v1) = _
  after_results
  rfl

/-! ## A step's blocks are four consecutive clouds -/

theorem idx_facts0 : ∀ t : Fin cfg0.N, win0_0.index t 0 = t.val ∧ win0_0.index t 1 = 0 ∧ win0_0.index t 2 = 0 := by
  decide +kernel

theorem idx_facts1 : ∀ t : Fin cfg0.N, win0_1.index t 0 = t.val ∧ win0_1.index t 1 = 0 ∧ win0_1.index t 2 = 0 := by
  decide +kernel

theorem iblk0_apply (c : Dev nD) (t : Fin cfg0.N) (g : Fin 4) (i : Fin 512) (k : Fin 128) (hb : 4 * t.val + g.val < 128) :
    (iblk m c 0 t : Vec Ideal S4x512x128 .f32) (ix3 g i k) = V m c main_v0 (ix3 ⟨4 * t.val + g.val, hb⟩ i k) := by
  obtain ⟨e0, e1, e2⟩ := idx_facts0 t
  unfold iblk
  rw [View.read_apply]
  show V m c main_v0 _ = V m c main_v0 _
  congr 1
  funext a
  apply Fin.ext
  match a with
  | ⟨0, _⟩ => show win0_0.index t 0 * 4 + 1 * g.val = 4 * t.val + g.val; rw [e0]; omega
  | ⟨1, _⟩ => show win0_0.index t 1 * 512 + 1 * i.val = i.val; rw [e1]; omega
  | ⟨2, _⟩ => show win0_0.index t 2 * 128 + 1 * k.val = k.val; rw [e2]; omega

theorem iblk1_apply (c : Dev nD) (t : Fin cfg0.N) (g : Fin 4) (i : Fin 512) (k : Fin 128) (hb : 4 * t.val + g.val < 128) :
    (iblk m c 1 t : Vec Ideal S4x512x128 .f32) (ix3 g i k) = V m c main_v1 (ix3 ⟨4 * t.val + g.val, hb⟩ i k) := by
  obtain ⟨e0, e1, e2⟩ := idx_facts1 t
  unfold iblk
  rw [View.read_apply]
  show V m c main_v1 _ = V m c main_v1 _
  congr 1
  funext a
  apply Fin.ext
  match a with
  | ⟨0, _⟩ => show win0_1.index t 0 * 4 + 1 * g.val = 4 * t.val + g.val; rw [e0]; omega
  | ⟨1, _⟩ => show win0_1.index t 1 * 512 + 1 * i.val = i.val; rw [e1]; omega
  | ⟨2, _⟩ => show win0_1.index t 2 * 128 + 1 * k.val = k.val; rw [e2]; omega

/-- The loss of pair g of step t is the loss of pair 4t + g of the families. -/
theorem step_loss (c : Dev nD) (t : Fin cfg0.N) (g : Fin 4) :
    loss (cl (iblk m c 0 t) g) (cl (iblk m c 1 t) g)
      = lossN (fam (V m c main_v0)) (fam (V m c main_v1)) (4 * t.val + g.val) := by
  have hN : cfg0.N = 32 := N_0
  have hb : 4 * t.val + g.val < 128 := by have := t.isLt; have := g.isLt; omega
  unfold lossN
  rw [dif_pos hb]
  have e0 : cl (iblk m c 0 t) g = fam (V m c main_v0) ⟨4 * t.val + g.val, hb⟩ :=
    funext fun i => funext fun k => iblk0_apply m c t g i k hb
  have e1 : cl (iblk m c 1 t) g = fam (V m c main_v1) ⟨4 * t.val + g.val, hb⟩ :=
    funext fun i => funext fun k => iblk1_apply m c t g i k hb
  rw [e0, e1]

/-! ## The running sum is the chain -/

/-- The stored zero. -/
theorem zero_apply (j : S1x1.Idx) : k0_pay3 (F := Ideal) j = Ideal.ofBits .f32 0x00000000#32 := by
  unfold k0_pay3
  exact congrFun (shapeCast_self _ _) j

/-- After step n the running sum's one entry is the chain over the steps' sums of four losses. -/
theorem after_apply (c : Dev nD) : ∀ (n : ℕ) (h : n < cfg0.N),
    after m c n h (ix2 (0 : Fin 1) (0 : Fin 1))
      = chain (fun t => ∑ g : Fin 4, lossN (fam (V m c main_v0)) (fam (V m c main_v1)) (4 * t + g.val)) n
  | 0, h => by
    unfold after step
    rw [acc_apply, zero_apply]
    show _ = Ideal.ofBits .f32 0x00000000#32 + _
    exact congrArg (Ideal.ofBits .f32 0x00000000#32 + ·) (Finset.sum_congr rfl fun g _ => step_loss m c ⟨0, h⟩ g)
  | n + 1, h => by
    unfold after step
    rw [acc_apply]
    show _ = chain _ n + _
    rw [← after_apply c n (Nat.lt_of_succ_lt h)]
    exact congrArg (after m c n _ (ix2 0 0) + ·) (Finset.sum_congr rfl fun g _ => step_loss m c ⟨n + 1, h⟩ g)

/-! ## The result -/

/-- The program's result: the energy of the two families. -/
theorem result_eq (c : Dev nD) (j : S_.Idx) :
    shapeCast S_ (result m c) shapeCasts_S1x1_S_ j = energy (fam (V m c main_v0)) (fam (V m c main_v1)) := by
  refine (shapeCast_apply _ _ j (ix2 (0 : Fin 1) (0 : Fin 1)) (by
    rw [Shape.rowMajor_val_two]
    have h := (S_.rowMajor j).isLt
    have h1 : S_.numel = 1 := by decide
    show 0 * 1 + 0 = _
    omega)).trans ?_
  show Ideal.div (after m c 31 tLast.isLt (ix2 0 0)) (Ideal.ofBits .f32 0x43000000#32) = _
  rw [after_apply]
  exact chain_energy _ _

end Cert.KernelIdeal.Acc

end
-- ==== Proof.RefEnergy.lean ====
/-
  The reference computes the energy of its two arguments seen as families of clouds.

  Each argument, reshaped to [128, 512, 128], is a family of 128 clouds. At pair b the reference forms the squared
  norms of the points, the inner products of every point of one cloud with every point of the other, the guarded
  distances, their sum over all 512·512 pairs of points divided by 262144 — three times: for (x, y), (x, x), (y, y) —,
  the loss, and at last the losses' sum over the 128 pairs divided by 128. Read one stage at a time at an index, this
  is the energy of the two families.
-/
import proofs.«171528_j88390426952445_1_alg».proof.Proof.Gen.ReferenceIdeal.Read
import proofs.«171528_j88390426952445_1_alg».proof.Proof.Energy

noncomputable section

namespace Cert.ReferenceIdeal.RefEnergy

open Cert.ReferenceIdeal Cert.ReferenceIdeal.Gen Cert.ReferenceIdeal.Read Idealize.ShloMosaic Idealize.ShloMosaic.ValueIdx
open Cert.Energy

/-! ## Squared norms: a point's coordinates squared and summed (the host's sum starts from its zero) -/

theorem sq_v3 (x0 : (⟨S65536x128, .f32⟩ : BufTy).Contents (Elt Ideal)) (b : Fin 128) (p : Fin 512) :
    val_main_v3 (F := Ideal) x0 (ix2 b p) = sq (fam (val_main_v0 (F := Ideal) x0) b) p := by
  rw [val_main_v3_apply]
  show Ideal.ofBits .f32 0x00000000#32 + _ = _
  rw [Ideal.ofBits_zero_f32, zero_add]
  refine Finset.sum_congr rfl fun k _ => ?_
  have e : idx_main_v3 (ix2 b p) k = ix3 b p k := funext fun a => by
    match a with | ⟨0, _⟩ => rfl | ⟨1, _⟩ => rfl | ⟨2, _⟩ => rfl
  rw [e]; rfl

theorem sq_v5 (x1 : (⟨S65536x128, .f32⟩ : BufTy).Contents (Elt Ideal)) (b : Fin 128) (p : Fin 512) :
    val_main_v5 (F := Ideal) x1 (ix2 b p) = sq (fam (val_main_v1 (F := Ideal) x1) b) p := by
  rw [val_main_v5_apply]
  show Ideal.ofBits .f32 0x00000000#32 + _ = _
  rw [Ideal.ofBits_zero_f32, zero_add]
  refine Finset.sum_congr rfl fun k _ => ?_
  have e : idx_main_v5 (ix2 b p) k = ix3 b p k := funext fun a => by
    match a with | ⟨0, _⟩ => rfl | ⟨1, _⟩ => rfl | ⟨2, _⟩ => rfl
  rw [e]; rfl

theorem sq_v24 (x0 : (⟨S65536x128, .f32⟩ : BufTy).Contents (Elt Ideal)) (b : Fin 128) (p : Fin 512) :
    val_main_v24 (F := Ideal) x0 (ix2 b p) = sq (fam (val_main_v0 (F := Ideal) x0) b) p := by
  rw [val_main_v24_apply]
  show Ideal.ofBits .f32 0x00000000#32 + _ = _
  rw [Ideal.ofBits_zero_f32, zero_add]
  refine Finset.sum_congr rfl fun k _ => ?_
  have e : idx_main_v24 (ix2 b p) k = ix3 b p k := funext fun a => by
    match a with | ⟨0, _⟩ => rfl | ⟨1, _⟩ => rfl | ⟨2, _⟩ => rfl
  rw [e]; rfl

theorem sq_v26 (x0 : (⟨S65536x128, .f32⟩ : BufTy).Contents (Elt Ideal)) (b : Fin 128) (p : Fin 512) :
    val_main_v26 (F := Ideal) x0 (ix2 b p) = sq (fam (val_main_v0 (F := Ideal) x0) b) p := by
  rw [val_main_v26_apply]
  show Ideal.ofBits .f32 0x00000000#32 + _ = _
  rw [Ideal.ofBits_zero_f32, zero_add]
  refine Finset.sum_congr rfl fun k _ => ?_
  have e : idx_main_v26 (ix2 b p) k = ix3 b p k := funext fun a => by
    match a with | ⟨0, _⟩ => rfl | ⟨1, _⟩ => rfl | ⟨2, _⟩ => rfl
  rw [e]; rfl

theorem sq_v45 (x1 : (⟨S65536x128, .f32⟩ : BufTy).Contents (Elt Ideal)) (b : Fin 128) (p : Fin 512) :
    val_main_v45 (F := Ideal) x1 (ix2 b p) = sq (fam (val_main_v1 (F := Ideal) x1) b) p := by
  rw [val_main_v45_apply]
  show Ideal.ofBits .f32 0x00000000#32 + _ = _
  rw [Ideal.ofBits_zero_f32, zero_add]
  refine Finset.sum_congr rfl fun k _ => ?_
  have e : idx_main_v45 (ix2 b p) k = ix3 b p k := funext fun a => by
    match a with | ⟨0, _⟩ => rfl | ⟨1, _⟩ => rfl | ⟨2, _⟩ => rfl
  rw [e]; rfl

theorem sq_v47 (x1 : (⟨S65536x128, .f32⟩ : BufTy).Contents (Elt Ideal)) (b : Fin 128) (p : Fin 512) :
    val_main_v47 (F := Ideal) x1 (ix2 b p) = sq (fam (val_main_v1 (F := Ideal) x1) b) p := by
  rw [val_main_v47_apply]
  show Ideal.ofBits .f32 0x00000000#32 + _ = _
  rw [Ideal.ofBits_zero_f32, zero_add]
  refine Finset.sum_congr rfl fun k _ => ?_
  have e : idx_main_v47 (ix2 b p) k = ix3 b p k := funext fun a => by
    match a with | ⟨0, _⟩ => rfl | ⟨1, _⟩ => rfl | ⟨2, _⟩ => rfl
  rw [e]; rfl

/-! ## Inner products: the batched product contracts the coordinate axis -/

theorem ip_v11 (x0 x1 : (⟨S65536x128, .f32⟩ : BufTy).Contents (Elt Ideal)) (b : Fin 128) (p q : Fin 512) :
    val_main_v11 (F := Ideal) x0 x1 (ix3 b p q)
      = ip (fam (val_main_v0 (F := Ideal) x0) b) (fam (val_main_v1 (F := Ideal) x1) b) p q := by
  rw [val_main_v11_apply]
  refine Finset.sum_congr rfl fun k _ => ?_
  have el : lidx_main_v11 (ix3 b p q) k = ix3 b p k := funext fun a => by
    match a with | ⟨0, _⟩ => rfl | ⟨1, _⟩ => rfl | ⟨2, _⟩ => rfl
  have er : ridx_main_v11 (ix3 b p q) k = ix3 b q k := funext fun a => by
    match a with | ⟨0, _⟩ => rfl | ⟨1, _⟩ => rfl | ⟨2, _⟩ => rfl
  rw [el, er]; rfl

theorem ip_v32 (x0 : (⟨S65536x128, .f32⟩ : BufTy).Contents (Elt Ideal)) (b : Fin 128) (p q : Fin 512) :
    val_main_v32 (F := Ideal) x0 (ix3 b p q)
      = ip (fam (val_main_v0 (F := Ideal) x0) b) (fam (val_main_v0 (F := Ideal) x0) b) p q := by
  rw [val_main_v32_apply]
  refine Finset.sum_congr rfl fun k _ => ?_
  have el : lidx_main_v32 (ix3 b p q) k = ix3 b p k := funext fun a => by
    match a with | ⟨0, _⟩ => rfl | ⟨1, _⟩ => rfl | ⟨2, _⟩ => rfl
  have er : ridx_main_v32 (ix3 b p q) k = ix3 b q k := funext fun a => by
    match a with | ⟨0, _⟩ => rfl | ⟨1, _⟩ => rfl | ⟨2, _⟩ => rfl
  rw [el, er]; rfl

theorem ip_v53 (x1 : (⟨S65536x128, .f32⟩ : BufTy).Contents (Elt Ideal)) (b : Fin 128) (p q : Fin 512) :
    val_main_v53 (F := Ideal) x1 (ix3 b p q)
      = ip (fam (val_main_v1 (F := Ideal) x1) b) (fam (val_main_v1 (F := Ideal) x1) b) p q := by
  rw [val_main_v53_apply]
  refine Finset.sum_congr rfl fun k _ => ?_
  have el : lidx_main_v53 (ix3 b p q) k = ix3 b p k := funext fun a => by
    match a with | ⟨0, _⟩ => rfl | ⟨1, _⟩ => rfl | ⟨2, _⟩ => rfl
  have er : ridx_main_v53 (ix3 b p q) k = ix3 b q k := funext fun a => by
    match a with | ⟨0, _⟩ => rfl | ⟨1, _⟩ => rfl | ⟨2, _⟩ => rfl
  rw [el, er]; rfl

/-! ## Distances: the column of squared norms spread along the rows, the row spread along the columns, the guard -/

theorem dist_xy (x0 x1 : (⟨S65536x128, .f32⟩ : BufTy).Contents (Elt Ideal)) (b : Fin 128) (p q : Fin 512) :
    val_main_v19 (F := Ideal) x0 x1 (ix3 b p q)
      = D (fam (val_main_v0 (F := Ideal) x0) b) (fam (val_main_v1 (F := Ideal) x1) b) p q := by
  have ec : idx_main_v6 (idx_main_v8 (ix3 b p q)) = ix2 b p := funext fun a => by
    match a with | ⟨0, _⟩ => rfl | ⟨1, _⟩ => rfl
  have er : idx_main_v7 (idx_main_v9 (ix3 b p q)) = ix2 b q := funext fun a => by
    match a with | ⟨0, _⟩ => rfl | ⟨1, _⟩ => rfl
  have hc : val_main_v8 (F := Ideal) x0 (ix3 b p q) = sq (fam (val_main_v0 (F := Ideal) x0) b) p := by
    rw [val_main_v8_apply, val_main_v6_apply, ec, sq_v3]
  have hr : val_main_v9 (F := Ideal) x1 (ix3 b p q) = sq (fam (val_main_v1 (F := Ideal) x1) b) q := by
    rw [val_main_v9_apply, val_main_v7_apply, er, sq_v5]
  rw [val_main_v19_apply, val_main_v18_apply, val_main_v17_apply, val_main_v16_apply, val_main_v14_apply,
    val_main_v10_apply, val_main_v13_apply, hc, hr, ip_v11]
  rfl

theorem dist_xx (x0 : (⟨S65536x128, .f32⟩ : BufTy).Contents (Elt Ideal)) (b : Fin 128) (p q : Fin 512) :
    val_main_v40 (F := Ideal) x0 (ix3 b p q)
      = D (fam (val_main_v0 (F := Ideal) x0) b) (fam (val_main_v0 (F := Ideal) x0) b) p q := by
  have ec : idx_main_v27 (idx_main_v29 (ix3 b p q)) = ix2 b p := funext fun a => by
    match a with | ⟨0, _⟩ => rfl | ⟨1, _⟩ => rfl
  have er : idx_main_v28 (idx_main_v30 (ix3 b p q)) = ix2 b q := funext fun a => by
    match a with | ⟨0, _⟩ => rfl | ⟨1, _⟩ => rfl
  have hc : val_main_v29 (F := Ideal) x0 (ix3 b p q) = sq (fam (val_main_v0 (F := Ideal) x0) b) p := by
    rw [val_main_v29_apply, val_main_v27_apply, ec, sq_v24]
  have hr : val_main_v30 (F := Ideal) x0 (ix3 b p q) = sq (fam (val_main_v0 (F := Ideal) x0) b) q := by
    rw [val_main_v30_apply, val_main_v28_apply, er, sq_v26]
  rw [val_main_v40_apply, val_main_v39_apply, val_main_v38_apply, val_main_v37_apply, val_main_v35_apply,
    val_main_v31_apply, val_main_v34_apply, hc, hr, ip_v32]
  rfl

theorem dist_yy (x1 : (⟨S65536x128, .f32⟩ : BufTy).Contents (Elt Ideal)) (b : Fin 128) (p q : Fin 512) :
    val_main_v61 (F := Ideal) x1 (ix3 b p q)
      = D (fam (val_main_v1 (F := Ideal) x1) b) (fam (val_main_v1 (F := Ideal) x1) b) p q := by
  have ec : idx_main_v48 (idx_main_v50 (ix3 b p q)) = ix2 b p := funext fun a => by
    match a with | ⟨0, _⟩ => rfl | ⟨1, _⟩ => rfl
  have er : idx_main_v49 (idx_main_v51 (ix3 b p q)) = ix2 b q := funext fun a => by
    match a with | ⟨0, _⟩ => rfl | ⟨1, _⟩ => rfl
  have hc : val_main_v50 (F := Ideal) x1 (ix3 b p q) = sq (fam (val_main_v1 (F := Ideal) x1) b) p := by
    rw [val_main_v50_apply, val_main_v48_apply, ec, sq_v45]
  have hr : val_main_v51 (F := Ideal) x1 (ix3 b p q) = sq (fam (val_main_v1 (F := Ideal) x1) b) q := by
    rw [val_main_v51_apply, val_main_v49_apply, er, sq_v47]
  rw [val_main_v61_apply, val_main_v60_apply, val_main_v59_apply, val_main_v58_apply, val_main_v56_apply,
    val_main_v52_apply, val_main_v55_apply, hc, hr, ip_v53]
  rfl

/-! ## The sum over both point axes at once -/

/-- The host's sum over axes 1 and 2 of a [128, 512, 512] array, read at b: the initial value plus the double sum
    over the two dropped coordinates (the indices that drop to b are exactly the (b, i, j)). -/
theorem reduce12 (W : S128x512x512.Idx → EReal) (init : S_.Idx → EReal) (b : Fin 128) :
    Host.reduceAdd (F := Ideal) (φ := .f32) W init reducesTo_S128x512x512_S128_d1_2 h_S_ (ix1 b)
      = init (Shape.Idx.first h_S_) + ∑ i : Fin 512, ∑ j : Fin 512, W (ix3 b i j) := by
  show Ideal.hostReduceAdd reducesTo_S128x512x512_S128_d1_2 W _ (ix1 b) = _
  unfold Ideal.hostReduceAdd
  congr 1
  rw [← Fintype.sum_prod_type (f := fun pq : Fin 512 × Fin 512 => W (ix3 b pq.1 pq.2))]
  symm
  refine Finset.sum_bij (fun (pq : Fin 512 × Fin 512) _ => ix3 b pq.1 pq.2) ?_ ?_ ?_ ?_
  · intro pq _
    rw [Finset.mem_filter]
    exact ⟨Finset.mem_univ _, funext fun a => by match a with | ⟨0, _⟩ => rfl⟩
  · intro pq _ pq' _ h
    exact Prod.ext (congrFun h 1) (congrFun h 2)
  · intro x hx
    rw [Finset.mem_filter] at hx
    refine ⟨(x 1, x 2), Finset.mem_univ _, ?_⟩
    have h0 : b = x 0 := (congrFun hx.2 0).symm
    funext a
    match a with
    | ⟨0, _⟩ => exact h0
    | ⟨1, _⟩ => rfl
    | ⟨2, _⟩ => rfl
  · intro pq _; rfl

/-! ## The three means -/

theorem mean_xy (x0 x1 : (⟨S65536x128, .f32⟩ : BufTy).Contents (Elt Ideal)) (b : Fin 128) :
    val_main_v22 (F := Ideal) x0 x1 (ix1 b)
      = mean (fam (val_main_v0 (F := Ideal) x0) b) (fam (val_main_v1 (F := Ideal) x1) b) := by
  rw [val_main_v22_apply]
  unfold val_main_v20
  rw [reduce12]
  simp only [dist_xy]
  rfl

theorem mean_xx (x0 : (⟨S65536x128, .f32⟩ : BufTy).Contents (Elt Ideal)) (b : Fin 128) :
    val_main_v43 (F := Ideal) x0 (ix1 b)
      = mean (fam (val_main_v0 (F := Ideal) x0) b) (fam (val_main_v0 (F := Ideal) x0) b) := by
  rw [val_main_v43_apply]
  unfold val_main_v41
  rw [reduce12]
  simp only [dist_xx]
  rfl

theorem mean_yy (x1 : (⟨S65536x128, .f32⟩ : BufTy).Contents (Elt Ideal)) (b : Fin 128) :
    val_main_v64 (F := Ideal) x1 (ix1 b)
      = mean (fam (val_main_v1 (F := Ideal) x1) b) (fam (val_main_v1 (F := Ideal) x1) b) := by
  rw [val_main_v64_apply]
  unfold val_main_v62
  rw [reduce12]
  simp only [dist_yy]
  rfl

/-! ## The result -/

/-- The reference's result is the energy of the two reshaped arguments. -/
theorem result_eq (x0 x1 : (⟨S65536x128, .f32⟩ : BufTy).Contents (Elt Ideal)) (i : S_.Idx) :
    val_main_v72 (F := Ideal) x0 x1 i
      = energy (fam (val_main_v0 (F := Ideal) x0)) (fam (val_main_v1 (F := Ideal) x1)) := by
  rw [val_main_v72_apply, val_main_v71_apply, sum_idx1]
  have hl : ∀ b : Fin 128, val_main_v70 (F := Ideal) x0 x1 (ix1 b)
      = loss (fam (val_main_v0 (F := Ideal) x0) b) (fam (val_main_v1 (F := Ideal) x1) b) := fun b => by
    rw [val_main_v70_apply, val_main_v67_apply, val_main_v66_apply, val_main_v69_apply, mean_xy, mean_xx, mean_yy]
    rfl
  simp only [hl]
  rfl

end Cert.ReferenceIdeal.RefEnergy

end
-- ==== Proof.lean ====
/-
  The kernel against its reference: an energy distance between two families of point clouds.

  Both programs reshape their two arguments to [128, 512, 128] — 128 pairs of clouds of 512 points with 128
  coordinates — and compute, for each pair, mean(x, y) - ½·mean(x, x) - ½·mean(y, y), where mean(a, b) is the mean over
  all pairs of points of the guarded distance (the root of |aᵢ|² + |bⱼ|² - 2⟨aᵢ, bⱼ⟩ where that is positive, else 0),
  and return the mean of the 128 losses.

  They differ in arrangement only. The reference sums the 512·512 distances of a pair at once and divides by 262144;
  the kernel scales each row's sum by 1/512, sums those and scales by 1/512 again. The distances are ≥ 0 on the
  extended reals, so the nonnegative real 1/512 distributes over their sums, and (1/512)² = 1/262144: the means agree.
  The reference sums the 128 losses at once; the kernel takes four pairs per grid step and carries a running sum over
  32 steps, started from zero: the same sum, addition being commutative and associative. Both divide by 128 at the end.
  A change of float format is the identity on the extended reals, so the kernel's narrowed operands of the matrix
  products are the operands themselves.

  The three frames are the generated ones (the reference's is its generated run with the result dropped); the ideal
  pass rewrote nothing, so the kernel's idealization is its own text; the value claim is assembled below from the
  kernel's run read as the energy and the reference's run read as the energy.
-/
import proofs.«171528_j88390426952445_1_alg».proof.Defs
import proofs.«171528_j88390426952445_1_alg».proof.Proof.Gen.Kernel
import proofs.«171528_j88390426952445_1_alg».proof.Proof.Gen.Kernel.Skeleton
import proofs.«171528_j88390426952445_1_alg».proof.Proof.Gen.Kernel.Launch
import proofs.«171528_j88390426952445_1_alg».proof.Proof.Gen.Kernel.Points
import proofs.«171528_j88390426952445_1_alg».proof.Proof.Gen.Kernel.Frame
import proofs.«171528_j88390426952445_1_alg».proof.Proof.Gen.KernelIdeal
import proofs.«171528_j88390426952445_1_alg».proof.Proof.Gen.KernelIdeal.Skeleton
import proofs.«171528_j88390426952445_1_alg».proof.Proof.Gen.KernelIdeal.Launch
import proofs.«171528_j88390426952445_1_alg».proof.Proof.Gen.KernelIdeal.Points
import proofs.«171528_j88390426952445_1_alg».proof.Proof.Gen.KernelIdeal.Frame
import proofs.«171528_j88390426952445_1_alg».proof.Proof.Gen.ReferenceIdeal
import proofs.«171528_j88390426952445_1_alg».proof.Proof.Gen.Pre_finite_inputs
import proofs.«171528_j88390426952445_1_alg».proof.Proof.Gen.ReferenceIdeal.Run
import proofs.«171528_j88390426952445_1_alg».proof.Proof.Gen.ReferenceIdeal.Read
import proofs.«171528_j88390426952445_1_alg».proof.Proof.KernelEnergy
import proofs.«171528_j88390426952445_1_alg».proof.Proof.RefEnergy
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end at the energy of the reshaped arguments, which agree. -/
theorem algebraic : Cert.algebraic_KernelIdeal_ReferenceIdeal := by
  intro m ρ m' ρ' _ hagree
  refine ⟨fun c => shapeCast Cert.KernelIdeal.S_ (Cert.KernelIdeal.Acc.result m c) Cert.KernelIdeal.Gen.shapeCasts_S1x1_S_,
    Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v72_eq]
  funext j
  rw [Cert.ReferenceIdeal.RefEnergy.result_eq]
  refine Eq.trans ?_ (Cert.KernelIdeal.Acc.result_eq m c j).symm
  rw [(hagree c).1, (hagree c).2, Cert.KernelIdeal.Acc.V_v0, Cert.KernelIdeal.Acc.V_v1]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
